-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S262144x128 .f32) (main_arg1 : FVec F S256x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S262144x128 : Shape := ⟨2, ![262144, 128]⟩
abbrev S256x128 : Shape := ⟨2, ![256, 128]⟩
abbrev S_ : Shape := ⟨0, ![]⟩
abbrev S256 : Shape := ⟨1, ![256]⟩
abbrev S1x256 : Shape := ⟨2, ![1, 256]⟩
abbrev S262144x256 : Shape := ⟨2, ![262144, 256]⟩
abbrev S16384x128 : Shape := ⟨2, ![16384, 128]⟩
abbrev S16384x256 : Shape := ⟨2, ![16384, 256]⟩
abbrev S4096x128 : Shape := ⟨2, ![4096, 128]⟩
abbrev S4096 : Shape := ⟨1, ![4096]⟩
abbrev S4096x1 : Shape := ⟨2, ![4096, 1]⟩
abbrev S4096x256 : Shape := ⟨2, ![4096, 256]⟩

abbrev nBuf : Space → Nat
  | .hbm => 10
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S_, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S_, .f32⟩
  | .hbm, ⟨7, _⟩ => ⟨S256, .f32⟩
  | .hbm, ⟨8, _⟩ => ⟨S1x256, .f32⟩
  | .hbm, ⟨9, _⟩ => ⟨S262144x256, .f32⟩
  | .local _ .vmem, ⟨0, _⟩ => ⟨S16384x128, .f32⟩
  | .local _ .vmem, ⟨1, _⟩ => ⟨S16384x128, .f32⟩
  | .local _ .vmem, ⟨2, _⟩ => ⟨S256x128, .f32⟩
  | .local _ .vmem, ⟨3, _⟩ => ⟨S1x256, .f32⟩
  | .local _ .vmem, ⟨4, _⟩ => ⟨S16384x256, .f32⟩
  | .local _ .vmem, ⟨5, _⟩ => ⟨S16384x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_off1 (c0_i32 : BitVec 32) : Fin 2 → Nat :=
  let c4096_i32 : BitVec 32 := 4096#32
  let v4 : BitVec 32 := Scalar.muli c0_i32 c4096_i32
  let v5 : Index := Scalar.indexCast v4
  let c0_3 : Index := 0#32
  ![v5.toNat, 0]
def k0_off2 (c0_i32 : BitVec 32) : Fin 2 → Nat :=
  let c4096_i32_8 : BitVec 32 := 4096#32
  let v25 : BitVec 32 := Scalar.muli c0_i32 c4096_i32_8
  let v26 : Index := Scalar.indexCast v25
  let c0_9 : Index := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x128 : S_.BroadcastsInDim S256x128 (![] : Fin 0 → Fin S256x128.rank)
  reducesTo_S256x128_S256_d1 : S256x128.ReducesTo [1] S256
  h_S_ : 0 < S_.numel
  bcast_S256_S1x256_1 : S256.BroadcastsInDim S1x256 (![1] : Fin 1 → Fin S1x256.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S4096x128 : 0 < S4096x128.numel
  reduces_S4096x128_S4096 : S4096x128.Reduces [1] S4096
  shapeCasts_S4096_S4096x1 : S4096.ShapeCasts S4096x1
  broadcasts_S1x256_S4096x256 : S1x256.Broadcasts S4096x256
  broadcasts_S4096x1_S4096x256 : S4096x1.Broadcasts S4096x256
  reduces_S4096x256_S4096 : S4096x256.Reduces [1] S4096
  h_S4096x256 : 0 < S4096x256.numel
  dot_S4096x128_S256x128_S4096x256_1_1_0_0_n_n_wf : DotDims.WF S4096x128 S256x128 S4096x256 [1] [1] [0] [0] [] []
  hrank0 : 0 < grid0.rank
  k0_off1_inb : ∀ (r : Fin 4), ∀ a, (k0_off1 (BitVec.ofNat 32 r.val)) a + S4096x128.size a ≤ S16384x128.size a
  k0_off2_inb : ∀ (r : Fin 4), ∀ a, (k0_off2 (BitVec.ofNat 32 r.val)) a + S4096x256.size a ≤ S16384x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x256.size a ≤ S262144x256.size a
  hwx0_3 : ∀ i : grid0.Coords, EltTy.bits .f32 = 32 ∨ (Rect.block (s := S262144x256) S16384x256.size (cc0_transform_3 i) (hinb0_3 i)).WholeWords (EltTy.packing .f32)

variable [Facts₀]

def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16384x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S_ : Shape := ⟨0, ![]⟩
abbrev S262144 : Shape := ⟨1, ![262144]⟩
abbrev S262144x1 : Shape := ⟨2, ![262144, 1]⟩
abbrev S256 : Shape := ⟨1, ![256]⟩
abbrev S1x256 : Shape := ⟨2, ![1, 256]⟩
abbrev S262144x256 : Shape := ⟨2, ![262144, 256]⟩
abbrev S128x256 : Shape := ⟨2, ![128, 256]⟩

abbrev nBuf : Space → Nat
  | .hbm => 34
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S262144x128, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S256x128, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S128x256, .f32⟩
  | .hbm, ⟨14, _⟩ => ⟨S262144x256, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144x256, .f32⟩
  | .hbm, ⟨21, _⟩ => ⟨S262144x256, .f32⟩
  | .hbm, ⟨22, _⟩ => ⟨S262144x256, .f32⟩
  | .hbm, ⟨23, _⟩ => ⟨S_, .f32⟩
  | .hbm, ⟨24, _⟩ => ⟨S262144x256, .f32⟩
  | .hbm, ⟨25, _⟩ => ⟨S262144x256, .f32⟩
  | .hbm, ⟨26, _⟩ => ⟨S_, .f32⟩
  | .hbm, ⟨27, _⟩ => ⟨S262144x256, .f32⟩
  | .hbm, ⟨28, _⟩ => ⟨S262144x256, .f32⟩
  | .hbm, ⟨29, _⟩ => ⟨S_, .f32⟩
  | .hbm, ⟨30, _⟩ => ⟨S262144, .f32⟩
  | .hbm, ⟨31, _⟩ => ⟨S262144x1, .f32⟩
  | .hbm, ⟨32, _⟩ => ⟨S262144x256, .f32⟩
  | .hbm, ⟨33, _⟩ => ⟨S262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S256x128_S256_d1 : S256x128.ReducesTo [1] S256
  bcast_S256_S1x256_1 : S256.BroadcastsInDim S1x256 (![1] : Fin 1 → Fin S1x256.rank)
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  transposes_S256x128_S128x256_1_0 : S256x128.Transposes [1, 0] S128x256
  bcast_S_S262144x256 : S_.BroadcastsInDim S262144x256 (![] : Fin 0 → Fin S262144x256.rank)
  reducesTo_S262144x256_S262144_d1 : S262144x256.ReducesTo [1] S262144
  dot_S262144x128_S128x256_S262144x256_1_0_0_1_n_n_wf : DotDims.WF S262144x128 S128x256 S262144x256 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.ChunkValue.lean ====
/-
  What the kernel body stores for one chunk of 4096 rows, read at an entry.

  The body handles its block of 16384 rows as four chunks of 4096 rows and stores, for each chunk, the same function of
  the chunk `xc`, of the block `cs` (every centre times -2) and of the row `c2` (every centre's squared norm):
  for row `r` and centre `j`,
      sq r j = Σ_f xc r f · xc r f  +  (c2 j + Σ_f xc r f · cs j f)
      u  r j = exp (ph · log (max (sq r j) eps²))
      out r j = u r j / Σ_k u r k.
  `expo` is the term for `u` as the body spells it; the four stores' payloads are that one function of their chunk
  (`pay1_eq`, `pay7_eq`, `pay65_eq`: the same operations in the same order).  `pay_apply` reads it at `(r, j)`.
-/
import proofs.«113740_g21560735826243_pilotgen1_711_10_alg».proof.Proof.Gen.KernelIdeal.Skeleton
import proofs.«113740_g21560735826243_pilotgen1_711_10_alg».proof.Proof.LibRowSoftmax
import proofs.«113740_g21560735826243_pilotgen1_711_10_alg».proof.Proof.LibIndexReads
import Idealize.ShloMosaic.PureOps.IdealRules
import Idealize.ShloMosaic.PureOps.Ideal.Laws
import Idealize.ShloMosaic.Lib.ValueIdx
import Idealize.ShloMosaic.Lib.Pipeline.Value

noncomputable section

open scoped BigOperators

namespace Cert.Fcm.Chunk

open Idealize.ShloMosaic Idealize.ShloMosaic.ValueIdx Cert.KernelIdeal Cert.KernelIdeal.Gen

/-- One un-normalised membership: `exp (ph · log (max (|x|² + (c2 + x·cs)) eps²))`. -/
def expoEntry (eps2 ph : EReal) (x cs : Fin 128 → EReal) (c2 : EReal) : EReal :=
  Ideal.exp (ph * Ideal.log (max ((∑ f, x f * x f) + (c2 + ∑ f, x f * cs f)) eps2))

section AnyValues

variable {F : FTy → Type} [FloatOps F] [Named F]

/-- The un-normalised memberships of a chunk, as the body spells them. -/
def expo (v0 : Vec F S256x128 .f32) (v2 : Vec F S1x256 .f32) (xc : Vec F S4096x128 .f32) : FVec F S4096x256 .f32 :=
  exp (mulf (broadcast S4096x256 (Scalar.ofBits .f32 0xBFB6DB6E#32))
    (log (maximumf
      (addf
        (broadcastTo S4096x256 (shapeCast S4096x1 (multiReduction .add [1] S4096 (mulf xc xc) 0x00000000#32 reduces_S4096x128_S4096 (.inl rfl) rfl) shapeCasts_S4096_S4096x1) broadcasts_S4096x1_S4096x256)
        (addf (broadcastTo S4096x256 (shapeCast S1x256 v2 shapeCasts_S1x256_S1x256) broadcasts_S1x256_S4096x256)
          (matmul dot_S4096x128_S256x128_S4096x256_1_1_0_0_n_n none xc (shapeCast S256x128 v0 shapeCasts_S256x128_S256x128) (constant S4096x256 .f32 0x00000000#32))))
      (broadcast S4096x256 (Named.named κ "eps_sq" 0x179ABE15#32)))))

/-- The first chunk's payload: every row of `expo` over its sum. -/
theorem pay4_eq (v0 : Vec F S256x128 .f32) (v2 : Vec F S1x256 .f32) (xc : Vec F S4096x128 .f32) :
    k0_pay4 v0 v2 xc = RowSoftmax.normRows (a := 4096) (n := 256) (expo v0 v2 xc) reduces_S4096x256_S4096 (.inl rfl) rfl
      shapeCasts_S4096_S4096x1 broadcasts_S4096x1_S4096x256 := rfl

/-- The other three chunks' payloads are the same function of their chunk. -/
theorem pay1_eq (v0 : Vec F S256x128 .f32) (v2 : Vec F S1x256 .f32) (xc : Vec F S4096x128 .f32) :
    k0_pay1 (k0_pay2 v0) (k0_pay3 v2) xc = k0_pay4 v0 v2 xc := rfl
theorem pay7_eq (v0 : Vec F S256x128 .f32) (v2 : Vec F S1x256 .f32) (xc : Vec F S4096x128 .f32) :
    k0_pay7 (k0_pay2 v0) (k0_pay3 v2) xc = k0_pay4 v0 v2 xc := rfl
theorem pay65_eq (v0 : Vec F S256x128 .f32) (v2 : Vec F S1x256 .f32) (xc : Vec F S4096x128 .f32) :
    k0_pay6 (k0_pay5 v0 v2 xc) = k0_pay4 v0 v2 xc := rfl

end AnyValues

/-! ## At the ideal values, entry by entry -/

/-- The squared norm of row `r` of the chunk, kept as a column and spread along the row. -/
theorem rowsq_apply (xc : FVec Ideal S4096x128 .f32) (r : Fin 4096) (j : Fin 256) :
    broadcastTo S4096x256 (shapeCast S4096x1 (multiReduction .add [1] S4096 (mulf xc xc) 0x00000000#32 reduces_S4096x128_S4096 (.inl rfl) rfl) shapeCasts_S4096_S4096x1) broadcasts_S4096x1_S4096x256 (ix2 r j)
      = ∑ f : Fin 128, xc (ix2 r f) * xc (ix2 r f) :=
  (RowSoftmax.column_broadcast_apply _ _ r j).trans <| (RowSoftmax.column_apply _ _ r 0).trans <|
    (Ideal.multiReduction_add_single (mulf xc xc) _ reduces_S4096x128_S4096 (.inl rfl) rfl (ix1 r)).trans
      (Finset.sum_congr rfl fun k _ => congrArg (mulf xc xc) (RowSoftmax.row_lift reduces_S4096x128_S4096 r k))

/-- The row of squared centre norms spread over the chunk's rows. -/
theorem c2row_apply (v2 : FVec Ideal S1x256 .f32) (r : Fin 4096) (j : Fin 256) :
    broadcastTo S4096x256 (shapeCast S1x256 v2 shapeCasts_S1x256_S1x256) broadcasts_S1x256_S4096x256 (ix2 r j)
      = v2 (ix2 (0 : Fin 1) j) := by
  rw [shapeCast_self]
  refine broadcastTo_apply v2 _ (ix2 r j) (ix2 (0 : Fin 1) j) fun ax => ?_
  match ax with
  | ⟨0, _⟩ => show (0 : ℕ) = if (1 : ℕ) = 1 then 0 else r.val; rw [if_pos rfl]
  | ⟨1, _⟩ => show j.val = if (256 : ℕ) = 1 then 0 else j.val; rw [if_neg (by decide)]

/-- The chunk times the transposed centre block: entry `(r, j)` is row `r` of the chunk against row `j` of the block. -/
theorem dot_apply (v0 : FVec Ideal S256x128 .f32) (xc : FVec Ideal S4096x128 .f32) (r : Fin 4096) (j : Fin 256) :
    matmul dot_S4096x128_S256x128_S4096x256_1_1_0_0_n_n none xc (shapeCast S256x128 v0 shapeCasts_S256x128_S256x128) (constant S4096x256 .f32 0x00000000#32) (ix2 r j)
      = ∑ f : Fin 128, xc (ix2 r f) * v0 (ix2 j f) := by
  rw [shapeCast_self]
  refine IndexReads.matmul_zero_single dot_S4096x128_S256x128_S4096x256_1_1_0_0_n_n 128 rfl rfl none xc v0 (ix2 r j)
    (fun k => ix2 r k) (fun k => ix2 j k) (fun k => ?_) (fun k => ?_)
  · have hk := contrEquiv1_symm_val dot_S4096x128_S256x128_S4096x256_1_1_0_0_n_n 128 rfl rfl k
    funext a; apply Fin.ext
    match a with
    | ⟨0, _⟩ =>
      show (dot_S4096x128_S256x128_S4096x256_1_1_0_0_n_n.lhsIdx (ix2 r j) _ 0).val = r.val
      unfold DotDims.lhsIdx
      rw [dif_neg (show ¬(0 : Fin S4096x128.rank) ∈ dot_S4096x128_S256x128_S4096x256_1_1_0_0_n_n.lhsBatch by decide), dif_pos (show (0 : Fin S4096x128.rank) ∈ dot_S4096x128_S256x128_S4096x256_1_1_0_0_n_n.lhsNonContracting by decide)]
      rfl
    | ⟨1, _⟩ => exact (dot_S4096x128_S256x128_S4096x256_1_1_0_0_n_n.lhsIdx_val_of_single rfl _ _).trans hk
  · have hk := contrEquiv1_symm_val dot_S4096x128_S256x128_S4096x256_1_1_0_0_n_n 128 rfl rfl k
    funext a; apply Fin.ext
    match a with
    | ⟨0, _⟩ =>
      show (dot_S4096x128_S256x128_S4096x256_1_1_0_0_n_n.rhsIdx (ix2 r j) _ 0).val = j.val
      unfold DotDims.rhsIdx
      rw [dif_neg (show ¬(0 : Fin S256x128.rank) ∈ dot_S4096x128_S256x128_S4096x256_1_1_0_0_n_n.rhsBatch by decide), dif_pos (show (0 : Fin S256x128.rank) ∈ dot_S4096x128_S256x128_S4096x256_1_1_0_0_n_n.rhsNonContracting by decide)]
      rfl
    | ⟨1, _⟩ => exact (dot_S4096x128_S256x128_S4096x256_1_1_0_0_n_n.rhsIdx_val_of_single rfl _ _).trans hk

/-- The value the statement's table gives the kernel's lower bound on a squared distance. -/
abbrev epsSq : EReal := ((5316911940649 / 5316911983139663491615228241121378304 : ℝ) : EReal)

theorem named_epsSq : Named.named (F := Ideal) κ "eps_sq" (φ := .f32) 0x179ABE15#32 = epsSq :=
  IdealRules.named_const.ideal_named_scalar _ _ _ _ rfl

theorem exp_at {s : Shape} (v : FVec Ideal s .f32) (i : s.Idx) : exp v i = Ideal.exp (v i) := rfl
theorem log_at {s : Shape} (v : FVec Ideal s .f32) (i : s.Idx) : log v i = Ideal.log (v i) := rfl

/-- An un-normalised membership at `(r, j)`. -/
theorem expo_apply (v0 : FVec Ideal S256x128 .f32) (v2 : FVec Ideal S1x256 .f32) (xc : FVec Ideal S4096x128 .f32)
    (r : Fin 4096) (j : Fin 256) :
    expo (F := Ideal) v0 v2 xc (ix2 r j)
      = expoEntry epsSq (Ideal.ofBits .f32 0xBFB6DB6E#32) (fun f => xc (ix2 r f)) (fun f => v0 (ix2 j f)) (v2 (ix2 (0 : Fin 1) j)) := by
  unfold expo expoEntry
  rw [exp_at, mulf_apply, broadcast_apply, log_at, maximumf_apply, addf_apply, addf_apply, broadcast_apply,
    rowsq_apply, c2row_apply, dot_apply, named_epsSq]
  rfl

/-- The kernel's exponent on a squared distance, as the body's word. -/
abbrev halfExpo : EReal := Ideal.ofBits .f32 0xBFB6DB6E#32

/-- One entry of the result from a row `X` of the input, the rows `CS k` (centre `k` times -2) and the squared
    centre norms `C2 k`: the membership of centre `j` over the sum of the memberships of all centres. -/
def rowOut (X : Fin 128 → EReal) (CS : Fin 256 → Fin 128 → EReal) (C2 : Fin 256 → EReal) (j : Fin 256) : EReal :=
  Ideal.div (expoEntry epsSq halfExpo X (CS j) (C2 j)) (∑ k : Fin 256, expoEntry epsSq halfExpo X (CS k) (C2 k))

/-- The chunk's payload at `(r, j)`: the membership over the sum of its row; it depends on row `r` of the chunk only. -/
theorem pay_apply (v0 : FVec Ideal S256x128 .f32) (v2 : FVec Ideal S1x256 .f32) (xc : FVec Ideal S4096x128 .f32)
    (r : Fin 4096) (j : Fin 256) :
    k0_pay4 (F := Ideal) v0 v2 xc (ix2 r j)
      = rowOut (fun f => xc (ix2 r f)) (fun k f => v0 (ix2 k f)) (fun k => v2 (ix2 (0 : Fin 1) k)) j := by
  rw [pay4_eq]
  refine (RowSoftmax.normRows_apply (a := 4096) (n := 256) (expo v0 v2 xc) reduces_S4096x256_S4096 (.inl rfl) rfl
    shapeCasts_S4096_S4096x1 broadcasts_S4096x1_S4096x256 r j).trans ?_
  simp only [expo_apply]
  rfl

end Cert.Fcm.Chunk

end
-- ==== Proof.BlockValue.lean ====
/-
  What the kernel body leaves in its output block, as one function of the three input blocks.

  The body stores four pieces, rows `4096 q … 4096 q + 4095` of the block for `q = 0, 1, 2, 3`, each the chunk function
  of rows `4096 q …` of the input block `x0`.  An entry of a chunk's payload depends only on its own row of the chunk,
  so all four pieces are restrictions of ONE function of the block index `y`: row `y 0` of `x0` against every row
  of `x1` and every entry of `x2`, read at column `y 1` (`blockFn`).  The four pieces tile the block, so the block
  ends holding `blockFn` (`out_block`).
-/
import proofs.«113740_g21560735826243_pilotgen1_711_10_alg».proof.Proof.Gen.KernelIdeal.Frame
import proofs.«113740_g21560735826243_pilotgen1_711_10_alg».proof.Proof.ChunkValue
import Idealize.ShloMosaic.Lib.Pipeline.Value
import Idealize.ShloMosaic.Lib.Tactic

set_option maxRecDepth 16384

noncomputable section

open scoped BigOperators

namespace Cert.Fcm.Block

open Idealize.ShloMosaic Idealize.ShloMosaic.TcCoe Idealize.SL.Sem Idealize.ShloMosaic.Tactic Idealize.ShloMosaic.ValueIdx
open Cert.KernelIdeal Cert.KernelIdeal.Gen Cert.Fcm.Chunk

theorem hz : (![0, 0] : Fin 2 → Nat) = fun _ => 0 := funext fun a => by fin_cases a <;> rfl

/-- The output block as a function of the input blocks: entry `y` is row `y 0` of `x0` against all centres, at centre `y 1`. -/
def blockFn (x0 : Vec Ideal S16384x128 .f32) (x1 : Vec Ideal S256x128 .f32) (x2 : Vec Ideal S1x256 .f32) :
    S16384x256.Idx → EReal :=
  fun y => rowOut (fun f => x0 (ix2 (y 0) f)) (fun k f => x1 (ix2 k f)) (fun k => x2 (ix2 (0 : Fin 1) k)) (y 1)

/-- A piece stored at rows `o …` whose payload is the chunk function of rows `o …` of `x0` agrees with `blockFn`. -/
theorem piece_agrees (o : ℕ) (inb : ∀ a, (![o, 0] : Fin 2 → ℕ) a + (![4096, 128] : Fin 2 → ℕ) a ≤ S16384x128.size a)
    (inb' : ∀ a, (![o, 0] : Fin 2 → ℕ) a + (![4096, 256] : Fin 2 → ℕ) a ≤ S16384x256.size a)
    (x0 : Vec Ideal S16384x128 .f32) (x1 : Vec Ideal S256x128 .f32) (x2 : Vec Ideal S1x256 .f32)
    (x : (Rect.unit (s := S16384x256) ![o, 0] ![4096, 256] inb').shape.Idx) :
    k0_pay4 (F := Ideal) x1 x2 (View.ld x0 (Rect.unit (s := S16384x128) ![o, 0] ![4096, 128] inb)) x
      = blockFn x0 x1 x2 ((Rect.unit (s := S16384x256) ![o, 0] ![4096, 256] inb').emb x) := by
  obtain ⟨r, j, rfl⟩ : ∃ (r : Fin 4096) (j : Fin 256), x = ix2 r j := ⟨x 0, x 1, eq_ix2 x⟩
  rw [pay_apply]
  unfold blockFn
  have e1 : ((Rect.unit (s := S16384x256) ![o, 0] ![4096, 256] inb').emb (ix2 r j)) 1 = j :=
    Fin.ext (by show 0 + 1 * j.val = j.val; omega)
  have e0 : ∀ f : Fin 128, View.ld x0 (Rect.unit (s := S16384x128) ![o, 0] ![4096, 128] inb) (ix2 r f)
      = x0 (ix2 (((Rect.unit (s := S16384x256) ![o, 0] ![4096, 256] inb').emb (ix2 r j)) 0) f) := fun f =>
    congrArg x0 (funext fun a => Fin.ext (by
      match a with
      | ⟨0, _⟩ => rfl
      | ⟨1, _⟩ => show 0 + 1 * f.val = f.val; omega))
  rw [e1]
  simp only [e0]

/-- The output block after the body: `blockFn` of the input blocks. -/
theorem out_block (c : Dev nD) (i : grid0.Coords) (a1 : Memref sig .tc .vmem S16384x128 .f32) (h1 : a1.IsWhole)
    (a2 : Memref sig .tc .vmem S256x128 .f32) (h2 : a2.IsWhole) (a3 : Memref sig .tc .vmem S1x256 .f32) (h3 : a3.IsWhole)
    (a4 : Memref sig .tc .vmem S16384x256 .f32) (h4 : a4.IsWhole)
    (x0 : Vec Ideal S16384x128 .f32) (x1 : Vec Ideal S256x128 .f32) (x2 : Vec Ideal S1x256 .f32) :
    out0_A_3 (F := Ideal) c i a1 h1 a2 h2 a3 h3 a4 h4 x0 x1 x2 = blockFn x0 x1 x2 := by
  unfold out0_A_3
  rw [View.read_writes_junk_eq_canon]
  funext y
  refine View.canon_apply_of_pieces (blockFn x0 x1 x2) _ ?_ y (cover0_A_3 c i a1 h1 a2 h2 a3 h3 a4 h4 x0 x1 x2 y)
  unfold kernelRun0_A
  dsimp only
  sl_unfold_words
  intro p hp x
  simp only [List.mem_cons, List.mem_nil_iff, or_false] at hp
  rcases hp with rfl | rfl | rfl | rfl
  all_goals dsimp only
  all_goals simp only [View.readAt_eq_ld, h1.read_unread, h2.read_unread, h3.read_unread,
    View.ld_unit_zero (S := S256x128) hz, View.ld_unit_zero (S := S1x256) hz, pay1_eq, pay7_eq, pay65_eq]
  all_goals exact piece_agrees _ _ _ x0 x1 x2 x

end Cert.Fcm.Block

end
-- ==== Proof.KernelArray.lean ====
/-
  The kernel's result array, as one function of the arrays the region finds.

  Grid point `t` of 16 works on rows `16384 t … 16384 t + 16383`: its input block is those rows of `x`, its output block
  those rows of the result; the other two operands are whole at every point.  An entry of the output block depends only
  on its own row of the input block, so what point `t` writes back is the block of ONE whole-array function
  (`arrayFn`: row `i 0` of `x` against all centres, at centre `i 1`).  The sixteen blocks tile the array (row `r`
  is in the block of point `r / 16384`), so the array ends holding `arrayFn`.
-/
import proofs.«113740_g21560735826243_pilotgen1_711_10_alg».proof.Proof.Gen.KernelIdeal.Value
import proofs.«113740_g21560735826243_pilotgen1_711_10_alg».proof.Proof.BlockValue
import Idealize.ShloMosaic.Lib.Pipeline.Value

set_option maxRecDepth 16384

noncomputable section

open scoped BigOperators

namespace Cert.Fcm.Array

open Idealize.ShloMosaic Idealize.ShloMosaic.TcCoe Idealize.SL.Sem Idealize.ShloMosaic.ValueIdx
open Idealize.ShloMosaic.Pipeline (Dat)
open Cert.KernelIdeal Cert.KernelIdeal.Gen Cert.Fcm.Chunk Cert.Fcm.Block

variable (m : (ℓ : Loc nD τ sig) → Buf (Elt Ideal) ℓ) (ρ : Dev nD → PrngReg)

/-- The result array as a function of the input array `X`, the centres times -2 (`CS`) and the row of squared centre
    norms (`C2`): entry `i` is row `i 0` of `X` against all centres, at centre `i 1`. -/
def arrayFn (X : S262144x128.Idx → EReal) (CS : S256x128.Idx → EReal) (C2 : S1x256.Idx → EReal) : S262144x256.Idx → EReal :=
  fun i => rowOut (fun f => X (ix2 (i 0) f)) (fun k f => CS (ix2 k f)) (fun k => C2 (ix2 (0 : Fin 1) k)) (i 1)

/-- The printed index maps, decided over the sixteen points: the input and output windows are at block row `t`, the
    other two windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := by
  have h := t.isLt
  have hN : cfg0.N = 16 := N_0
  omega

/-- Row `p` of point `t`'s block is row `16384 t + p` of the array. -/
def gRow (t : Fin cfg0.N) (p : Fin 16384) : Fin 262144 :=
  ⟨16384 * t.val + p.val, by have := t_lt t; have := p.isLt; omega⟩

/-- The input block at point `t`: rows `16384 t …` of the array the region finds. -/
theorem read0 (c : Dev nD) (t : Fin cfg0.N) (p : Fin 16384) (f : Fin 128) :
    iblk m c 0 t (ix2 p f) = V m c main_arg0 (ix2 (gRow t p) f) := by
  show V m c main_arg0 (((cfg0.win 0).blk t).view.emb (ix2 p f)) = _
  refine congrArg (V m c main_arg0) (funext fun a => Fin.ext ?_)
  obtain ⟨e0, e1, -⟩ := idx_facts t
  match a with
  | ⟨0, _⟩ => show win0_0.index t (0 : Fin 2) * 16384 + 1 * p.val = 16384 * t.val + p.val; rw [e0]; omega
  | ⟨1, _⟩ => show win0_0.index t (1 : Fin 2) * 128 + 1 * f.val = f.val; rw [e1]; omega

/-- The second operand's block is the whole array at every point. -/
theorem read1 (c : Dev nD) (t : Fin cfg0.N) (k : Fin 256) (f : Fin 128) :
    iblk m c 1 t (ix2 k f) = V m c main_v1 (ix2 k f) := by
  show V m c main_v1 (((cfg0.win 1).blk t).view.emb (ix2 k f)) = _
  refine congrArg (V m c main_v1) (funext fun a => Fin.ext ?_)
  obtain ⟨-, -, e2, e3, -⟩ := idx_facts t
  match a with
  | ⟨0, _⟩ => show win0_1.index t (0 : Fin 2) * 256 + 1 * k.val = k.val; rw [e2]; omega
  | ⟨1, _⟩ => show win0_1.index t (1 : Fin 2) * 128 + 1 * f.val = f.val; rw [e3]; omega

/-- So is the third's. -/
theorem read2 (c : Dev nD) (t : Fin cfg0.N) (k : Fin 256) :
    iblk m c 2 t (ix2 (0 : Fin 1) k) = V m c main_v4 (ix2 (0 : Fin 1) k) := by
  show V m c main_v4 (((cfg0.win 2).blk t).view.emb (ix2 (0 : Fin 1) k)) = _
  refine congrArg (V m c main_v4) (funext fun a => Fin.ext ?_)
  obtain ⟨-, -, -, -, e4, e5, -⟩ := idx_facts t
  match a with
  | ⟨0, _⟩ => show win0_2.index t (0 : Fin 2) * 1 + 1 * 0 = 0; rw [e4]
  | ⟨1, _⟩ => show win0_2.index t (1 : Fin 2) * 256 + 1 * k.val = k.val; rw [e5]; omega

/-- What point `t` writes back is block `t` of `arrayFn` of the arrays the region finds. -/
theorem flushed_eq (c : Dev nD) (t : Fin cfg0.N) :
    (dats m 0 c).flushed 3 t
      = ((cfg0.win 3).blk t).view.read (Elt Ideal) (arrayFn (V m c main_arg0) (V m c main_v1) (V m c main_v4)) := by
  rw [Cert.KernelIdeal.Value.flushed3_A, out_block]
  funext y
  obtain ⟨p, j, rfl⟩ : ∃ (p : Fin 16384) (j : Fin 256), y = ix2 p j := ⟨y 0, y 1, eq_ix2 y⟩
  have hemb : ((cfg0.win 3).blk t).view.emb (ix2 p j) = ix2 (gRow t p) j := by
    obtain ⟨-, -, -, -, -, -, e6, e7⟩ := idx_facts t
    funext a; apply Fin.ext
    match a with
    | ⟨0, _⟩ => show win0_3.index t (0 : Fin 2) * 16384 + 1 * p.val = 16384 * t.val + p.val; rw [e6]; omega
    | ⟨1, _⟩ => show win0_3.index t (1 : Fin 2) * 256 + 1 * j.val = j.val; rw [e7]; omega
  show blockFn (iblk m c 0 t) (iblk m c 1 t) (iblk m c 2 t) (ix2 p j)
    = arrayFn (V m c main_arg0) (V m c main_v1) (V m c main_v4) (((cfg0.win 3).blk t).view.emb (ix2 p j))
  rw [hemb]
  show rowOut (fun f => iblk m c 0 t (ix2 p f)) (fun k f => iblk m c 1 t (ix2 k f)) (fun k => iblk m c 2 t (ix2 (0 : Fin 1) k)) j
    = rowOut (fun f => V m c main_arg0 (ix2 (gRow t p) f)) (fun k f => V m c main_v1 (ix2 k f)) (fun k => V m c main_v4 (ix2 (0 : Fin 1) k)) j
  simp only [read0, read1, read2]

/-- An index of the array is in point `t`'s block iff each coordinate is in the block's range on its axis. -/
theorem mem_blk (t : Fin cfg0.N) (i : S262144x256.Idx) :
    i ∈ ((cfg0.win 3).blk t).view.set ↔ ∀ a : Fin 2, win0_3.index t a * S16384x256.size a ≤ (i a).val
      ∧ (i a).val < win0_3.index t a * S16384x256.size a + S16384x256.size a := by
  show i ∈ ((View.whole main_v5).slice (win0_3.rect t)).set ↔ _
  rw [View.set_slice_whole, Rect.mem_set_unit]
  exact Iff.rfl

/-- Every index of the array is in the block of the point its row divided by 16384 names. -/
theorem cover (i : S262144x256.Idx) :
    ∃ t : Fin cfg0.N, (cfg0.win 3).flush t = true ∧ i ∈ ((cfg0.win 3).blk t).view.set := by
  have hi0 : (i 0).val < 262144 := idx2_lt0 i
  have hi1 : (i 1).val < 256 := idx2_lt1 i
  have hN : cfg0.N = 16 := N_0
  obtain ⟨t, ht⟩ : ∃ t : Fin cfg0.N, t.val = (i 0).val / 16384 := ⟨⟨(i 0).val / 16384, by omega⟩, rfl⟩
  refine ⟨t, flush0_3 t, ?_⟩
  rw [mem_blk]
  obtain ⟨-, -, -, -, -, -, e6, e7⟩ := idx_facts t
  intro a
  match a with
  | ⟨0, _⟩ =>
    show win0_3.index t (0 : Fin 2) * 16384 ≤ (i 0).val ∧ (i 0).val < win0_3.index t (0 : Fin 2) * 16384 + 16384
    rw [e6, ht]; omega
  | ⟨1, _⟩ =>
    show win0_3.index t (1 : Fin 2) * 256 ≤ (i 1).val ∧ (i 1).val < win0_3.index t (1 : Fin 2) * 256 + 256
    rw [e7]; omega

/-- The result array after the run. -/
theorem final (c : Dev nD) :
    (dats m 0 c).arrAt 3 cfg0.N = arrayFn (V m c main_arg0) (V m c main_v1) (V m c main_v4) :=
  (dats m 0 c).arrAt_eq_of_cover 3 _ (fun t _ => flushed_eq m c t) cover

/-- The kernel's run, read: the result array at `arrayFn` of the argument `x` and of the two arrays the host computed
    from the argument `centers`; the arguments unchanged. -/
theorem run : θ_run defs (onTc (τ := τ) (main (F := Ideal))) ⟨m, fun _ => 0, ρ⟩ fun r => ∀ c : Dev nD,
      r.2.mem ((c : Thread nD τ).loc main_v5)
        = arrayFn (m ((c : Thread nD τ).loc main_arg0)) (V m c main_v1) (V m c main_v4)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0])), (h c).2⟩)
    (Cert.KernelIdeal.Value.run_blocks m ρ)

end Cert.Fcm.Array

end
-- ==== Proof.Literals.lean ====
/-
  The float literals the two programs spell, as the extended reals their words denote.

  The reference clamps a distance from below by the word `0x2B8CBCCC`, the dyadic `2305843 / 2^61`
  (the binary32 nearest to 10^-12), and raises it to the word `0xC036DB6E`, the dyadic `-11983726 / 2^22`
  (nearest to -20/7).  The kernel works with squared distances: it clamps by the square of the reference's
  threshold and multiplies a logarithm by the word `0xBFB6DB6E`, which is the same significand one binade
  lower, so exactly half of the reference's exponent.  The remaining words are 0, 2 and -2.
-/
import Idealize.ShloMosaic.PureOps.Ideal

noncomputable section

namespace Cert.Fcm.Literals

open Idealize.ShloMosaic

/-- The word of `+0.0` denotes `0`. -/
theorem ofBits_zero : Ideal.ofBits .f32 0x00000000#32 = 0 := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-2.0` denotes the real `-2`. -/
theorem ofBits_neg_two : Ideal.ofBits .f32 0xC0000000#32 = ((-2 : ℝ) : EReal) := by
  simp [Ideal.ofBits, Ideal.ieee, -EReal.coe_mul]; norm_num

/-- The reference's lower bound on a distance: the dyadic `2305843 / 2^61`. -/
theorem ofBits_eps : Ideal.ofBits .f32 0x2B8CBCCC#32 = ((2305843 / 2 ^ 61 : ℝ) : EReal) := by
  simp [Ideal.ofBits, Ideal.ieee, -EReal.coe_mul]; norm_num

/-- The reference's exponent on a distance: the dyadic `-(11983726 / 2^22)`. -/
theorem ofBits_expo : Ideal.ofBits .f32 0xC036DB6E#32 = ((-(11983726 / 2 ^ 22) : ℝ) : EReal) := by
  simp [Ideal.ofBits, Ideal.ieee, -EReal.coe_mul]; norm_num

/-- The kernel's exponent on a squared distance: the dyadic `-(11983726 / 2^23)`, half the reference's. -/
theorem ofBits_half_expo : Ideal.ofBits .f32 0xBFB6DB6E#32 = ((-(11983726 / 2 ^ 23) : ℝ) : EReal) := by
  simp [Ideal.ofBits, Ideal.ieee, -EReal.coe_mul]; norm_num

end Cert.Fcm.Literals

end
-- ==== Proof.HostOperands.lean ====
/-
  The two arrays the host computes before the kernel is launched, read at an entry.

  The kernel's second operand is every centre times -2 and its third is the row of the centres' squared norms, both
  computed by host operations from the argument `centers` before the region is entered.
-/
import proofs.«113740_g21560735826243_pilotgen1_711_10_alg».proof.Proof.Gen.KernelIdeal.Frame
import proofs.«113740_g21560735826243_pilotgen1_711_10_alg».proof.Proof.Literals
import Idealize.ShloMosaic.Lib.Pipeline.Value
import Idealize.ShloMosaic.Lib.StableHlo.Run
import Idealize.ShloMosaic.PureOps.Ideal.Laws
import Idealize.ShloMosaic.Lib.ValueIdx

noncomputable section

open scoped BigOperators

namespace Cert.Fcm.Host

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The argument `centers` on core `c`, as an array of extended reals. -/
abbrev cen (c : Dev nD) : S256x128.Idx → EReal := m ((c : Thread nD τ).loc main_arg1)

/-- The region finds, as its second operand, the centres times the constant -2. -/
theorem cs_eq (c : Dev nD) : (V m c main_v1 : S256x128.Idx → EReal)
    = mulf (cen m c) (broadcastInDim S256x128 ![] bcast_S_S256x128 (constant (F := Ideal) S_ .f32 0xC0000000#32)) := by
  dsimp only [V, hostOps0]; after_results

/-- Entry `(k, f)` of it: the centre's entry times -2. -/
theorem cs_apply (c : Dev nD) (k : Fin 256) (f : Fin 128) :
    @Eq EReal (V m c main_v1 (ix2 k f)) (cen m c (ix2 k f) * ((-2 : ℝ) : EReal)) := by
  refine (congrFun (cs_eq m c) (ix2 k f)).trans ?_
  rw [mulf_apply, broadcastInDim_apply _ bcast_S_S256x128 _ (ix2 k f) ix0 (fun a => a.elim0), constant_apply,
    Cert.Fcm.Literals.ofBits_neg_two]

/-- The region finds, as its third operand, the row of the centres' squared norms. -/
theorem c2_eq (c : Dev nD) : (V m c main_v4 : S1x256.Idx → EReal)
    = broadcastInDim S1x256 ![1] bcast_S256_S1x256_1
        (Host.reduceAdd (mulf (cen m c) (cen m c)) (constant (F := Ideal) S_ .f32 0x00000000#32) reducesTo_S256x128_S256_d1 h_S_) := by
  dsimp only [V, hostOps0]; after_results

/-- Entry `(0, k)` of it: the sum of the squares of centre `k`'s entries. -/
theorem c2_apply (c : Dev nD) (k : Fin 256) :
    @Eq EReal (V m c main_v4 (ix2 (0 : Fin 1) k)) (∑ f : Fin 128, cen m c (ix2 k f) * cen m c (ix2 k f)) := by
  refine (congrFun (c2_eq m c) (ix2 (0 : Fin 1) k)).trans ?_
  rw [broadcastInDim_apply _ bcast_S256_S1x256_1 _ (ix2 (0 : Fin 1) k) (ix1 k) (fun a => match a with
    | ⟨0, _⟩ => by show k.val = if (256 : ℕ) = 1 then 0 else k.val; rw [if_neg (by decide)])]
  simp only [Host.reduceAdd, Ideal.hostReduceAdd_def]
  rw [Ideal.hostReduceAdd_single reducesTo_S256x128_S256_d1 (by decide), constant_apply, Cert.Fcm.Literals.ofBits_zero, zero_add]
  show @Eq EReal _ _
  refine Finset.sum_congr rfl fun f _ => ?_
  show mulf (F := Ideal) (φ := .f32) (cen m c) (cen m c) _ = mulf (F := Ideal) (φ := .f32) (cen m c) (cen m c) (ix2 k f)
  exact congrArg (mulf (F := Ideal) (φ := .f32) (cen m c) (cen m c)) (funext fun a => Fin.ext (by match a with | ⟨0, _⟩ => rfl | ⟨1, _⟩ => rfl))

end Cert.Fcm.Host

end
-- ==== Proof.Finite.lean ====
/-
  From the precondition to real entries.

  The precondition is the conjunction of two `all`s: every entry of `x`, and every entry of `centers`, has its absolute
  value strictly below +∞.  On the extended reals `|v| = max v (-v)`, and `max v (-v) < ⊤` excludes both `v = ⊤` and
  `v = ⊥` (whose negation is `⊤`): the entry is a real number.
-/
import proofs.«113740_g21560735826243_pilotgen1_711_10_alg».proof.Pre_finite_inputs
import Idealize.ShloMosaic.Lib.ReduceAll
import Idealize.ShloMosaic.Lib.ValueIdx
import Idealize.ShloMosaic.PureOps.Ideal

noncomputable section

namespace Cert.Fcm.Finite

open Idealize.ShloMosaic Cert.Pre_finite_inputs

instance : Subsingleton S_.Idx := ⟨fun a b => funext fun d => d.elim0⟩

/-- An extended real whose absolute value compares below the word of +∞ is a real. -/
theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  have hlt : max v (-v) < ⊤ := by
    by_contra hn
    simp [Ideal.cmp, hn] at h
  induction v using EReal.rec with
  | bot => simp at hlt
  | coe r => exact ⟨r, rfl⟩
  | top => simp at hlt

variable [Facts]

/-- Under the precondition every entry of both arguments is a real. -/
theorem real_of_pre (x0 : FVec Ideal S262144x128 .f32) (x1 : FVec Ideal S256x128 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => ?_, fun i => ?_⟩
  · have e := Host.reduce_andi_all _ _ _ _ _ ha i
    exact real_of_abs_lt (x0 i) e
  · have e := Host.reduce_andi_all _ _ _ _ _ hb i
    exact real_of_abs_lt (x1 i) e

end Cert.Fcm.Finite

end
-- ==== Proof.RefEntry.lean ====
/-
  The reference, read at an entry.

  For row `p` of `x` and centre `k` the reference computes the squared distance as `(|x|² + |c|²) - 2 · x·c`, clamps it
  at zero, takes the root, clamps the distance at `e`, and raises it to `pw` (`refU`); entry `(p, j)` of its result is
  that membership of centre `j` over the sum of the memberships of all centres.
-/
import proofs.«113740_g21560735826243_pilotgen1_711_10_alg».proof.Proof.Gen.ReferenceIdeal.Read
import proofs.«113740_g21560735826243_pilotgen1_711_10_alg».proof.Proof.Literals

noncomputable section

open scoped BigOperators

namespace Cert.Fcm.Ref

open Idealize.ShloMosaic Idealize.ShloMosaic.ValueIdx Cert.ReferenceIdeal Cert.ReferenceIdeal.Read Cert.Fcm.Literals

/-- The reference's un-normalised membership of a centre `C` for a row `X`. -/
def refU (X C : Fin 128 → EReal) : EReal :=
  Ideal.pow
    (max (Ideal.sqrt (max (((∑ f, X f * X f) + (∑ f, C f * C f)) - ((2 : ℝ) : EReal) * ∑ f, X f * C f) ((0 : ℝ) : EReal)))
      ((2305843 / 2 ^ 61 : ℝ) : EReal))
    ((-(11983726 / 2 ^ 22) : ℝ) : EReal)

/-- The reference's membership array at `(p, k)`. -/
theorem u_apply (x0 : FVec Ideal S262144x128 .f32) (x1 : FVec Ideal S256x128 .f32) (p : Fin 262144) (k : Fin 256) :
    val_main_v20 (F := Ideal) x0 x1 (ix2 p k) = refU (fun f => x0 (ix2 p f)) (fun f => x1 (ix2 k f)) := by
  have i1 : ∀ f : Fin 128, idx_main_v1 (idx_main_v2 (idx_main_v6 (ix2 p k))) f = ix2 p f := fun f =>
    funext fun a => Fin.ext (by match a with | ⟨0, _⟩ => rfl | ⟨1, _⟩ => rfl)
  have i4 : ∀ f : Fin 128, idx_main_v4 (idx_main_v5 (idx_main_v7 (ix2 p k))) f = ix2 k f := fun f =>
    funext fun a => Fin.ext (by match a with | ⟨0, _⟩ => rfl | ⟨1, _⟩ => rfl)
  have il : ∀ f : Fin 128, lidx_main_v10 (ix2 p k) f = ix2 p f := fun f =>
    funext fun a => Fin.ext (by match a with | ⟨0, _⟩ => rfl | ⟨1, _⟩ => rfl)
  have ir : ∀ f : Fin 128, idx_main_v9 (ridx_main_v10 (ix2 p k) f) = ix2 k f := fun f =>
    funext fun a => Fin.ext (by match a with | ⟨0, _⟩ => rfl | ⟨1, _⟩ => rfl)
  rw [val_main_v20_apply, val_main_v18_apply, val_main_v16_apply, val_main_v15_apply, val_main_v13_apply,
    val_main_v8_apply, val_main_v6_apply, val_main_v2_apply, val_main_v1_apply, val_main_v7_apply, val_main_v5_apply,
    val_main_v4_apply, val_main_v12_apply, val_main_v11_apply, val_main_v10_apply, val_main_v14_apply,
    val_main_v17_apply, val_main_v19_apply]
  simp only [val_main_v0_apply, val_main_v3_apply, val_main_v9_apply, val_main_cst_apply, val_main_cst_0_apply,
    val_main_cst_1_apply, val_main_cst_2_apply, val_main_cst_3_apply, val_main_cst_4_apply, i1, i4, il, ir,
    Ideal.hostPowf_def, Ideal.maximumf_def, Ideal.hostUnary_sqrt_def, Ideal.subf_def, Ideal.addf_def, Ideal.mulf_def,
    Ideal.ofBits_def, ofBits_zero, ofBits_two, ofBits_eps, ofBits_expo, zero_add]
  rfl

/-- The reference's result at `(p, j)`: the membership of centre `j` over the sum of the memberships. -/
theorem out_apply (x0 : FVec Ideal S262144x128 .f32) (x1 : FVec Ideal S256x128 .f32) (p : Fin 262144) (j : Fin 256) :
    val_main_v24 (F := Ideal) x0 x1 (ix2 p j)
      = Ideal.div (refU (fun f => x0 (ix2 p f)) (fun f => x1 (ix2 j f)))
          (∑ k : Fin 256, refU (fun f => x0 (ix2 p f)) (fun f => x1 (ix2 k f))) := by
  have i21 : ∀ k : Fin 256, idx_main_v21 (idx_main_v22 (idx_main_v23 (ix2 p j))) k = ix2 p k := fun k =>
    funext fun a => Fin.ext (by match a with | ⟨0, _⟩ => rfl | ⟨1, _⟩ => rfl)
  rw [val_main_v24_apply, val_main_v23_apply, val_main_v22_apply, val_main_v21_apply]
  simp only [val_main_cst_5_apply, i21, u_apply, Ideal.hostDivf_def, Ideal.ofBits_def, ofBits_zero, zero_add]

end Cert.Fcm.Ref

end
-- ==== Proof.PowerLaw.lean ====
/-
  The real analysis that joins the two programs, free of any program.

  One entry of the result depends on a squared distance `s = |x|² + |c|² - 2 x·c` between a row `x` and a centre `c`.
  The reference clamps the DISTANCE from below: `d = max (√(max s 0)) e` with `e > 0`, and takes `d ^ pw`.
  The kernel clamps the SQUARED distance: `t = max s e²`, and takes `exp (ph · log t)` with `ph = pw / 2`.
  The square root is monotone and `√(e²) = e`, so `d² = t` (`clamp_sq`); `d` is positive, so
  `d ^ pw = exp (pw · log d)` and `log t = 2 · log d`: the two values are equal (`rpow_clamp`, `pow_clamp` on the
  extended reals, where every operation meets only finite arguments).

  The two programs also group the squared distance differently: the kernel adds the row sum of `x · (c · (-2))`,
  the reference subtracts twice the row sum of `x · c`.  For real entries both are the one real number
  `sqDist` (`ker_sq`, `ref_sq`).

  Everything here is stated for real entries, and that is where finiteness of the inputs enters the proof: it lets
  the factor `-2` leave the sum (distributivity fails at the infinities), and it keeps the root, the logarithm and the
  power on arguments inside their domains.
-/
import Idealize.ShloMosaic.PureOps.Ideal

noncomputable section

open scoped BigOperators

namespace Cert.Fcm.PowerLaw

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- and with `max`. -/
theorem coe_max (a b : ℝ) : ((max a b : ℝ) : EReal) = max (a : EReal) (b : EReal) :=
  EReal.coe_strictMono.monotone.map_max

/-- Clamping a distance at `e` and squaring is clamping the squared distance at `e²`. -/
theorem clamp_sq (s e : ℝ) (he : 0 < e) : (max (Real.sqrt (max s 0)) e) ^ 2 = max s (e ^ 2) := by
  by_cases h : s ≤ e ^ 2
  · have h1 : Real.sqrt (max s 0) ≤ e := by
      have : Real.sqrt (max s 0) ≤ Real.sqrt (e ^ 2) :=
        Real.sqrt_le_sqrt (max_le h (sq_nonneg e))
      rwa [Real.sqrt_sq he.le] at this
    rw [max_eq_right h1, max_eq_right h]
  · have h' : e ^ 2 < s := lt_of_not_ge h
    have hs : 0 < s := lt_trans (pow_pos he 2) h'
    have h1 : e ≤ Real.sqrt (max s 0) := by
      rw [max_eq_left hs.le]
      have : Real.sqrt (e ^ 2) ≤ Real.sqrt s := Real.sqrt_le_sqrt h'.le
      rwa [Real.sqrt_sq he.le] at this
    rw [max_eq_left h1, max_eq_left h'.le, max_eq_left hs.le, Real.sq_sqrt hs.le]

/-- The power of the clamped distance is the exponential of half the exponent times the logarithm of the
    clamped squared distance. -/
theorem rpow_clamp (s e pw ph : ℝ) (he : 0 < e) (hp : pw = 2 * ph) :
    Real.rpow (max (Real.sqrt (max s 0)) e) pw = Real.exp (ph * Real.log (max s (e ^ 2))) := by
  have hd : 0 < max (Real.sqrt (max s 0)) e := lt_of_lt_of_le he (le_max_right _ _)
  rw [← clamp_sq s e he, Real.log_pow, hp]
  show (max (Real.sqrt (max s 0)) e) ^ (2 * ph) = _
  rw [Real.rpow_def_of_pos hd]
  congr 1
  push_cast
  ring

/-- The same on the extended reals, with the operations of the ideal instance: every argument met is finite and
    inside the operation's domain (`max s 0 ≥ 0` under the root, `max s e² > 0` under the logarithm). -/
theorem pow_clamp (s e pw ph : ℝ) (he : 0 < e) (hp : pw = 2 * ph) :
    Ideal.pow (max (Ideal.sqrt (max (s : EReal) ((0 : ℝ) : EReal))) (e : EReal)) (pw : EReal)
      = Ideal.exp ((ph : EReal) * Ideal.log (max (s : EReal) ((e ^ 2 : ℝ) : EReal))) := by
  have h0 : ¬ max s 0 < 0 := not_lt.mpr (le_max_right s 0)
  have h1 : ¬ max s (e ^ 2) ≤ 0 := not_le.mpr (lt_of_lt_of_le (pow_pos he 2) (le_max_right _ _))
  rw [← coe_max, Ideal.sqrt_coe, if_neg h0, ← coe_max, Ideal.pow_coe_coe, ← coe_max, Ideal.log_coe, if_neg h1,
    ← EReal.coe_mul, Ideal.exp_coe]
  exact congrArg _ (rpow_clamp s e pw ph he hp)

/-- The squared distance between a row `x` and a centre `c`, both real. -/
def sqDist {n : ℕ} (x c : Fin n → ℝ) : ℝ := (∑ f, x f * x f) + (∑ f, c f * c f) - 2 * ∑ f, x f * c f

/-- The kernel's grouping: `|x|² + (|c|² + Σ x · (c · (-2)))`. -/
theorem ker_sq {n : ℕ} (x c : Fin n → ℝ) :
    (∑ f, (x f : EReal) * (x f : EReal))
        + ((∑ f, (c f : EReal) * (c f : EReal)) + ∑ f, (x f : EReal) * ((c f : EReal) * ((-2 : ℝ) : EReal)))
      = ((sqDist x c : ℝ) : EReal) := by
  simp only [← EReal.coe_mul, ← coe_sum, ← EReal.coe_add]
  congr 1
  unfold sqDist
  rw [Finset.mul_sum]
  have : ∀ f, x f * (c f * (-2)) = -(2 * (x f * c f)) := fun f => by ring
  simp only [this, Finset.sum_neg_distrib]
  ring

/-- The reference's grouping: `(|x|² + |c|²) - 2 · Σ x · c`. -/
theorem ref_sq {n : ℕ} (x c : Fin n → ℝ) :
    ((∑ f, (x f : EReal) * (x f : EReal)) + (∑ f, (c f : EReal) * (c f : EReal)))
        - ((2 : ℝ) : EReal) * ∑ f, (x f : EReal) * (c f : EReal)
      = ((sqDist x c : ℝ) : EReal) := by
  simp only [← EReal.coe_mul, ← coe_sum, ← EReal.coe_add, ← EReal.coe_sub]
  rfl

end Cert.Fcm.PowerLaw

end
-- ==== Proof.Bridge.lean ====
/-
  The kernel's array function is the reference's, when every input entry is a real.

  Entry `(p, j)` of either result is a membership of centre `j` over the sum of the memberships of all centres for row
  `p`, so it is enough that the memberships agree centre by centre.  With real entries both squared distances are the
  real `sqDist` of the row and the centre; the kernel's threshold on it is the square of the reference's threshold on
  the distance (the value the statement gives the kernel's constant), and the kernel's exponent is half the
  reference's: the power law of a clamped distance (`PowerLaw.pow_clamp`) joins them.
-/
import proofs.«113740_g21560735826243_pilotgen1_711_10_alg».proof.Proof.KernelArray
import proofs.«113740_g21560735826243_pilotgen1_711_10_alg».proof.Proof.RefEntry
import proofs.«113740_g21560735826243_pilotgen1_711_10_alg».proof.Proof.PowerLaw
import proofs.«113740_g21560735826243_pilotgen1_711_10_alg».proof.Proof.Literals

noncomputable section

open scoped BigOperators

namespace Cert.Fcm.Bridge

open Idealize.ShloMosaic Idealize.ShloMosaic.ValueIdx
open Cert.Fcm.Chunk Cert.Fcm.Array Cert.Fcm.Ref Cert.Fcm.PowerLaw

/-- The value the statement gives the kernel's threshold is the square of the reference's threshold. -/
theorem epsSq_eq : epsSq = (((2305843 / 2 ^ 61 : ℝ) ^ 2 : ℝ) : EReal) :=
  congrArg (fun r : ℝ => (r : EReal)) (by norm_num)

/-- One membership: the kernel's `exp (ph · log (max sq e²))` is the reference's `(max (√(max sq 0)) e) ^ pw`. -/
theorem entry_eq (x c : Fin 128 → ℝ) :
    expoEntry epsSq halfExpo (fun f => (x f : EReal)) (fun f => (c f : EReal) * ((-2 : ℝ) : EReal))
        (∑ f, (c f : EReal) * (c f : EReal))
      = refU (fun f => (x f : EReal)) (fun f => (c f : EReal)) := by
  unfold expoEntry refU
  rw [ker_sq x c, ref_sq x c, show halfExpo = ((-(11983726 / 2 ^ 23) : ℝ) : EReal) from Cert.Fcm.Literals.ofBits_half_expo,
    epsSq_eq]
  exact (pow_clamp (sqDist x c) (2305843 / 2 ^ 61) (-(11983726 / 2 ^ 22)) (-(11983726 / 2 ^ 23)) (by positivity) (by ring)).symm

/-- The kernel's array function of `X`, of the centres times -2 and of the squared centre norms is the reference's
    function of `X` and the centres. -/
theorem array_eq (X : Cert.KernelIdeal.S262144x128.Idx → EReal) (C CS : Cert.KernelIdeal.S256x128.Idx → EReal)
    (C2 : Cert.KernelIdeal.S1x256.Idx → EReal)
    (hX : ∀ i, ∃ r : ℝ, X i = (r : EReal)) (hC : ∀ i, ∃ r : ℝ, C i = (r : EReal))
    (hCS : ∀ (k : Fin 256) (f : Fin 128), CS (ix2 k f) = C (ix2 k f) * ((-2 : ℝ) : EReal))
    (hC2 : ∀ k : Fin 256, C2 (ix2 (0 : Fin 1) k) = ∑ f : Fin 128, C (ix2 k f) * C (ix2 k f)) :
    arrayFn X CS C2 = Cert.ReferenceIdeal.Read.val_main_v24 (F := Ideal) X C := by
  choose xr hxr using hX
  choose cr hcr using hC
  funext i
  obtain ⟨p, j, rfl⟩ : ∃ (p : Fin 262144) (j : Fin 256), i = ix2 p j := ⟨i 0, i 1, eq_ix2 i⟩
  rw [out_apply]
  show rowOut (fun f => X (ix2 p f)) (fun k f => CS (ix2 k f)) (fun k => C2 (ix2 (0 : Fin 1) k)) j = _
  unfold rowOut
  have key : ∀ k : Fin 256,
      expoEntry epsSq halfExpo (fun f => X (ix2 p f)) (fun f => CS (ix2 k f)) (C2 (ix2 (0 : Fin 1) k))
        = refU (fun f => X (ix2 p f)) (fun f => C (ix2 k f)) := fun k => by
    simp only [hCS, hC2, hxr, hcr]
    exact entry_eq (fun f => xr (ix2 p f)) (fun f => cr (ix2 k f))
  simp only [key]

end Cert.Fcm.Bridge

end
-- ==== Proof.lean ====
/-
  Fuzzy c-means memberships: for every row `x` of a [262144, 128] array and every one of 256 centres `c`, a power of the
  Euclidean distance, normalised over the centres.

  The reference computes `d = max (√(max (|x|² + |c|² - 2 x·c) 0)) e`, then `u = d ^ pw`, then `u / Σ_centres u`.
  The kernel never takes the root: it computes `sq = |x|² + (|c|² + x·(-2c))`, then `u = exp (ph · log (max sq e²))`
  with `ph = pw / 2`, then the same normalisation, on blocks of 16384 rows, each in four chunks of 4096 rows.
  On the extended reals, for finite inputs, the two memberships are one number: `d` is positive and `d² = max sq e²`,
  so `d ^ pw = exp (pw · log d) = exp (ph · log (d²))`.  The kernel's threshold is read as the exact square of the
  reference's threshold (the one named constant of the statement); the kernel's exponent word is exactly half the
  reference's.

  The three frames are the generated ones (the reference's is its generated run with the result dropped); the
  idealization's ledger has the named threshold at its four sites; the algebraic claim sets the kernel's run
  (KernelArray: the result array as one function of the arrays the region finds; HostOperands: the two arrays the host
  prepares) beside the reference's generated run, and Bridge shows the two functions equal when every entry is a real,
  which is what the precondition says (Finite).
-/
import proofs.«113740_g21560735826243_pilotgen1_711_10_alg».proof.Defs
import proofs.«113740_g21560735826243_pilotgen1_711_10_alg».proof.Proof.Gen.Kernel
import proofs.«113740_g21560735826243_pilotgen1_711_10_alg».proof.Proof.Gen.Kernel.Skeleton
import proofs.«113740_g21560735826243_pilotgen1_711_10_alg».proof.Proof.Gen.Kernel.Launch
import proofs.«113740_g21560735826243_pilotgen1_711_10_alg».proof.Proof.Gen.Kernel.Points
import proofs.«113740_g21560735826243_pilotgen1_711_10_alg».proof.Proof.Gen.Kernel.Frame
import proofs.«113740_g21560735826243_pilotgen1_711_10_alg».proof.Proof.Gen.KernelIdeal
import proofs.«113740_g21560735826243_pilotgen1_711_10_alg».proof.Proof.Gen.KernelIdeal.Skeleton
import proofs.«113740_g21560735826243_pilotgen1_711_10_alg».proof.Proof.Gen.KernelIdeal.Launch
import proofs.«113740_g21560735826243_pilotgen1_711_10_alg».proof.Proof.Gen.KernelIdeal.Points
import proofs.«113740_g21560735826243_pilotgen1_711_10_alg».proof.Proof.Gen.KernelIdeal.Frame
import proofs.«113740_g21560735826243_pilotgen1_711_10_alg».proof.Proof.Gen.ReferenceIdeal
import proofs.«113740_g21560735826243_pilotgen1_711_10_alg».proof.Proof.Gen.Pre_finite_inputs
import proofs.«113740_g21560735826243_pilotgen1_711_10_alg».proof.Proof.Gen.KernelIdeal.Value
import proofs.«113740_g21560735826243_pilotgen1_711_10_alg».proof.Proof.Gen.ReferenceIdeal.Run
import proofs.«113740_g21560735826243_pilotgen1_711_10_alg».proof.Proof.Gen.ReferenceIdeal.Read
import proofs.«113740_g21560735826243_pilotgen1_711_10_alg».proof.Proof.KernelArray
import proofs.«113740_g21560735826243_pilotgen1_711_10_alg».proof.Proof.HostOperands
import proofs.«113740_g21560735826243_pilotgen1_711_10_alg».proof.Proof.Finite
import proofs.«113740_g21560735826243_pilotgen1_711_10_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The statement's table gives the kernel's threshold on a squared distance the square of the reference's threshold
    on a distance, and the printed constant is that value at the ideal instance. -/
theorem eps_named : IdealRules.named_const.Statement Cert.KernelIdeal.κ "eps_sq" .f32 0x179ABE15#32
    ((5316911940649 / 5316911983139663491615228241121378304 : ℝ) : EReal) :=
  IdealRules.named_const.statement Cert.KernelIdeal.κ "eps_sq" .f32 0x179ABE15#32
    ((5316911940649 / 5316911983139663491615228241121378304 : ℝ) : EReal) rfl

/-- The ledger: the one named constant, at its four sites (one per chunk). -/
theorem preserves : Cert.preserves_Kernel_KernelIdeal := ⟨eps_named, eps_named, eps_named, eps_named⟩

/-- Both programs end at the reference's function of the kernel's own arguments: the reference by its generated run
    and the agreement of the memories, the kernel by its run and the equality of the two functions on real entries. -/
theorem algebraic : Cert.algebraic_KernelIdeal_ReferenceIdeal := by
  intro m ρ m' ρ' hpre hagree
  refine ⟨fun c => Cert.ReferenceIdeal.Read.val_main_v24 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.Fcm.Array.run m ρ)
    obtain ⟨hX, hC⟩ := Cert.Fcm.Finite.real_of_pre _ _ (hpre c)
    exact Cert.Fcm.Bridge.array_eq _ _ _ _ hX hC (Cert.Fcm.Host.cs_apply m c) (Cert.Fcm.Host.c2_apply m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, (hagree c).1, (hagree c).2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
